-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S65536 : Shape := ⟨1, ![65536]⟩
abbrev S128x512x1024 : Shape := ⟨3, ![128, 512, 1024]⟩
abbrev S128x512 : Shape := ⟨2, ![128, 512]⟩
abbrev S128x1024x512 : Shape := ⟨3, ![128, 1024, 512]⟩
abbrev S128x1024 : Shape := ⟨2, ![128, 1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S128x512x1024 : S_.BroadcastsInDim S128x512x1024 (![] : Fin 0 → Fin S128x512x1024.rank)
  reducesTo_S128x512x1024_S_d0_1_2 : S128x512x1024.ReducesTo [0, 1, 2] S_
  bcast_S_S128x512 : S_.BroadcastsInDim S128x512 (![] : Fin 0 → Fin S128x512.rank)
  reducesTo_S128x512_S_d0_1 : S128x512.ReducesTo [0, 1] S_
  bcast_S_S128x1024x512 : S_.BroadcastsInDim S128x1024x512 (![] : Fin 0 → Fin S128x1024x512.rank)
  reducesTo_S128x1024x512_S_d0_1_2 : S128x1024x512.ReducesTo [0, 1, 2] S_
  bcast_S_S128x1024 : S_.BroadcastsInDim S128x1024 (![] : Fin 0 → Fin S128x1024.rank)
  reducesTo_S128x1024_S_d0_1 : S128x1024.ReducesTo [0, 1] S_

variable [Facts]

def fn_part1 {F : FTy → Type} [FloatOps F] (main_arg5 : FVec F S128x1024 .f32) (main_arg6 : FVec F S128x512x1024 .f32) (main_arg7 : FVec F S128x512 .f32) (main_v13 : IVec S_ 1) (main_v16 : IVec S128x1024x512 1) : IVec S_ 1 :=
  let main_c_5 : IVec S_ 1 := constantI S_ 1 1#1
  let main_v17 : IVec S_ 1 := (fun x v => Host.reduce IntOp.andi x v reducesTo_S128x1024x512_S_d0_1_2 h_S_) main_v16 main_c_5
  let main_v18 : IVec S_ 1 := andi main_v13 main_v17
  let main_v19 : FVec F S128x1024 .f32 := Host.absf main_arg5
  let main_cst_6 : FVec F S_ .f32 := constant S_ .f32 0x7F800000#32
  let main_v20 : FVec F S128x1024 .f32 := broadcastInDim S128x1024 ![] bcast_S_S128x1024 main_cst_6
  let main_v21 : IVec S128x1024 1 := cmpf .olt main_v19 main_v20
  let main_c_7 : IVec S_ 1 := constantI S_ 1 1#1
  let main_v22 : IVec S_ 1 := (fun x v => Host.reduce IntOp.andi x v reducesTo_S128x1024_S_d0_1 h_S_) main_v21 main_c_7
  let main_v23 : IVec S_ 1 := andi main_v18 main_v22
  let main_v24 : FVec F S128x512x1024 .f32 := Host.absf main_arg6
  let main_cst_8 : FVec F S_ .f32 := constant S_ .f32 0x7F800000#32
  let main_v25 : FVec F S128x512x1024 .f32 := broadcastInDim S128x512x1024 ![] bcast_S_S128x512x1024 main_cst_8
  let main_v26 : IVec S128x512x1024 1 := cmpf .olt main_v24 main_v25
  let main_c_9 : IVec S_ 1 := constantI S_ 1 1#1
  let main_v27 : IVec S_ 1 := (fun x v => Host.reduce IntOp.andi x v reducesTo_S128x512x1024_S_d0_1_2 h_S_) main_v26 main_c_9
  let main_v28 : IVec S_ 1 := andi main_v23 main_v27
  let main_v29 : FVec F S128x512 .f32 := Host.absf main_arg7
  let main_cst_10 : FVec F S_ .f32 := constant S_ .f32 0x7F800000#32
  let main_v30 : FVec F S128x512 .f32 := broadcastInDim S128x512 ![] bcast_S_S128x512 main_cst_10
  let main_v31 : IVec S128x512 1 := cmpf .olt main_v29 main_v30
  let main_c_11 : IVec S_ 1 := constantI S_ 1 1#1
  let main_v32 : IVec S_ 1 := (fun x v => Host.reduce IntOp.andi x v reducesTo_S128x512_S_d0_1 h_S_) main_v31 main_c_11
  let main_v33 : IVec S_ 1 := andi main_v28 main_v32
  main_v33

def fn {F : FTy → Type} [FloatOps F] (main_arg0 : FVec F S16x4096x1024 .f32) (main_arg1 : IVec S65536 32) (main_arg2 : FVec F S128x512x1024 .f32) (main_arg3 : FVec F S128x512 .f32) (main_arg4 : FVec F S128x1024x512 .f32) (main_arg5 : FVec F S128x1024 .f32) (main_arg6 : FVec F S128x512x1024 .f32) (main_arg7 : FVec F S128x512 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S128x512x1024 .f32 := Host.absf main_arg2
  let main_cst_0 : FVec F S_ .f32 := constant S_ .f32 0x7F800000#32
  let main_v5 : FVec F S128x512x1024 .f32 := broadcastInDim S128x512x1024 ![] bcast_S_S128x512x1024 main_cst_0
  let main_v6 : IVec S128x512x1024 1 := cmpf .olt main_v4 main_v5
  let main_c_1 : IVec S_ 1 := constantI S_ 1 1#1
  let main_v7 : IVec S_ 1 := (fun x v => Host.reduce IntOp.andi x v reducesTo_S128x512x1024_S_d0_1_2 h_S_) main_v6 main_c_1
  let main_v8 : IVec S_ 1 := andi main_v3 main_v7
  let main_v9 : FVec F S128x512 .f32 := Host.absf main_arg3
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128x1024x512 .f32 := Host.absf main_arg4
  let main_cst_4 : FVec F S_ .f32 := constant S_ .f32 0x7F800000#32
  let main_v15 : FVec F S128x1024x512 .f32 := broadcastInDim S128x1024x512 ![] bcast_S_S128x1024x512 main_cst_4
  let main_v16 : IVec S128x1024x512 1 := cmpf .olt main_v14 main_v15
  fn_part1 (F := F) main_arg5 main_arg6 main_arg7 main_v13 main_v16
-- ==== Kernel.lean ====
abbrev S16x4096x1024 : Shape := ⟨3, ![16, 4096, 1024]⟩
abbrev S65536 : Shape := ⟨1, ![65536]⟩
abbrev S128x512x1024 : Shape := ⟨3, ![128, 512, 1024]⟩
abbrev S128x512 : Shape := ⟨2, ![128, 512]⟩
abbrev S128x1024x512 : Shape := ⟨3, ![128, 1024, 512]⟩
abbrev S128x1024 : Shape := ⟨2, ![128, 1024]⟩
abbrev S65536x1024 : Shape := ⟨2, ![65536, 1024]⟩
abbrev S_ : Shape := ⟨0, ![]⟩
abbrev S65536x1 : Shape := ⟨2, ![65536, 1]⟩
abbrev S128x1x512 : Shape := ⟨3, ![128, 1, 512]⟩
abbrev S128x1x1024 : Shape := ⟨3, ![128, 1, 1024]⟩
abbrev S1x512x1024 : Shape := ⟨3, ![1, 512, 1024]⟩
abbrev S1x1x512 : Shape := ⟨3, ![1, 1, 512]⟩
abbrev S1x1024x512 : Shape := ⟨3, ![1, 1024, 512]⟩
abbrev S1x1x1024 : Shape := ⟨3, ![1, 1, 1024]⟩
abbrev S512x1024 : Shape := ⟨2, ![512, 1024]⟩
abbrev S512x512 : Shape := ⟨2, ![512, 512]⟩
abbrev S1x512 : Shape := ⟨2, ![1, 512]⟩
abbrev S1024x512 : Shape := ⟨2, ![1024, 512]⟩
abbrev S1x1024 : Shape := ⟨2, ![1, 1024]⟩

abbrev nBuf : Space → Nat
  | .hbm => 38
  | .vmem => 16
  | .smem => 0
  | _ => 0

abbrev bufTy : (tb : Table) → Fin (tcTables nBuf tb) → BufTy
  | .hbm, ⟨0, _⟩ => ⟨S16x4096x1024, .f32⟩
  | .hbm, ⟨1, _⟩ => ⟨S65536, .i32⟩
  | .hbm, ⟨2, _⟩ => ⟨S128x512x1024, .f32⟩
  | .hbm, ⟨3, _⟩ => ⟨S128x512, .f32⟩
  | .hbm, ⟨4, _⟩ => ⟨S128x1024x512, .f32⟩
  | .hbm, ⟨5, _⟩ => ⟨S128x1024, .f32⟩
  | .hbm, ⟨6, _⟩ => ⟨S128x512x1024, .f32⟩
  | .hbm, ⟨7, _⟩ => ⟨S128x512, .f32⟩
  | .hbm, ⟨8, _⟩ => ⟨S65536x1024, .f32⟩
  | .hbm, ⟨9, _⟩ => ⟨S65536x1024, .bf16⟩
  | .hbm, ⟨10, _⟩ => ⟨S_, .i32⟩
  | .hbm, ⟨11, _⟩ => ⟨S65536, .i32⟩
  | .hbm, ⟨12, _⟩ => ⟨S65536, .i1⟩
  | .hbm, ⟨13, _⟩ => ⟨S_, .i32⟩
  | .hbm, ⟨14, _⟩ => ⟨S65536, .i32⟩
  | .hbm, ⟨15, _⟩ => ⟨S65536, .i32⟩
  | .hbm, ⟨16, _⟩ => ⟨S65536, .i32⟩
  | .hbm, ⟨17, _⟩ => ⟨S65536x1, .i32⟩
  | .hbm, ⟨18, _⟩ => ⟨S65536x1024, .bf16⟩
  | .hbm, ⟨19, _⟩ => ⟨S128x512x1024, .bf16⟩
  | .hbm, ⟨20, _⟩ => ⟨S128x1x512, .f32⟩
  | .hbm, ⟨21, _⟩ => ⟨S128x1x512, .f32⟩
  | .hbm, ⟨22, _⟩ => ⟨S128x1x1024, .f32⟩
  | .hbm, ⟨23, _⟩ => ⟨S128x512x1024, .f32⟩
  | .hbm, ⟨24, _⟩ => ⟨S65536x1024, .f32⟩
  | .hbm, ⟨25, _⟩ => ⟨S65536, .i32⟩
  | .hbm, ⟨26, _⟩ => ⟨S65536, .i32⟩
  | .hbm, ⟨27, _⟩ => ⟨S65536, .i32⟩
  | .hbm, ⟨28, _⟩ => ⟨S_, .i32⟩
  | .hbm, ⟨29, _⟩ => ⟨S65536, .i32⟩
  | .hbm, ⟨30, _⟩ => ⟨S65536, .i1⟩
  | .hbm, ⟨31, _⟩ => ⟨S_, .i32⟩
  | .hbm, ⟨32, _⟩ => ⟨S65536, .i32⟩
  | .hbm, ⟨33, _⟩ => ⟨S65536, .i32⟩
  | .hbm, ⟨34, _⟩ => ⟨S65536, .i32⟩
  | .hbm, ⟨35, _⟩ => ⟨S65536x1, .i32⟩
  | .hbm, ⟨36, _⟩ => ⟨S65536x1024, .f32⟩
  | .hbm, ⟨37, _⟩ => ⟨S16x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x1x512, .f32⟩
  | .local _ .vmem, ⟨5, _⟩ => ⟨S1x1x512, .f32⟩
  | .local _ .vmem, ⟨6, _⟩ => ⟨S1x512x1024, .f32⟩
  | .local _ .vmem, ⟨7, _⟩ => ⟨S1x512x1024, .f32⟩
  | .local _ .vmem, ⟨8, _⟩ => ⟨S1x1x512, .f32⟩
  | .local _ .vmem, ⟨9, _⟩ => ⟨S1x1x512, .f32⟩
  | .local _ .vmem, ⟨10, _⟩ => ⟨S1x1024x512, .f32⟩
  | .local _ .vmem, ⟨11, _⟩ => ⟨S1x1024x512, .f32⟩
  | .local _ .vmem, ⟨12, _⟩ => ⟨S1x1x1024, .f32⟩
  | .local _ .vmem, ⟨13, _⟩ => ⟨S1x1x1024, .f32⟩
  | .local _ .vmem, ⟨14, _⟩ => ⟨S1x512x1024, .f32⟩
  | .local _ .vmem, ⟨15, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1_0 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S16x4096x1024_S65536x1024 : S16x4096x1024.ShapeCasts S65536x1024
  bitsLt_bf16_f32 : FTy.bits .bf16 < FTy.bits .f32
  bcast_S_S65536 : S_.BroadcastsInDim S65536 (![] : Fin 0 → Fin S65536.rank)
  bcast_S65536_S65536x1_0 : S65536.BroadcastsInDim S65536x1 (![0] : Fin 1 → Fin S65536x1.rank)
  shapeCasts_S65536x1024_S128x512x1024 : S65536x1024.ShapeCasts S128x512x1024
  shapeCasts_S128x512_S128x1x512 : S128x512.ShapeCasts S128x1x512
  shapeCasts_S128x1024_S128x1x1024 : S128x1024.ShapeCasts S128x1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S512x512 : S1x512.Broadcasts S512x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  shapeCasts_S512x1024_S1x512x1024 : S512x1024.ShapeCasts S1x512x1024
  shapeCasts_S128x512x1024_S65536x1024 : S128x512x1024.ShapeCasts S65536x1024
  shapeCasts_S65536x1024_S16x4096x1024 : S65536x1024.ShapeCasts S16x4096x1024
  gather_S65536x1024_S65536x1_S65536x1024_1_0_n_n_0_1_11024_wf : GatherDims.WF S65536x1024 S65536x1 S65536x1024 [1] [0] [] [0] [] 1 ![1, 1024]
  dot_S512x1024_S512x1024_S512x512_1_1_0_0_n_n_wf : DotDims.WF S512x1024 S512x1024 S512x512 [1] [1] [0] [0] [] []
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S128x512x1024.size a
  hwx0_0 : ∀ i : grid0.Coords, EltTy.bits .bf16 = 32 ∨ (Rect.block (s := S128x512x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S128x512x1024.size a
  hwx0_1 : ∀ i : grid0.Coords, EltTy.bits .f32 = 32 ∨ (Rect.block (s := S128x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S128x1x512.size a
  hwx0_2 : ∀ i : grid0.Coords, EltTy.bits .f32 = 32 ∨ (Rect.block (s := S128x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S128x512x1024.size a
  hwx0_3 : ∀ i : grid0.Coords, EltTy.bits .f32 = 32 ∨ (Rect.block (s := S128x512x1024) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S128x1x512.size a
  hwx0_4 : ∀ i : grid0.Coords, EltTy.bits .f32 = 32 ∨ (Rect.block (s := S128x1x512) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x512.size a ≤ S128x1024x512.size a
  hwx0_5 : ∀ i : grid0.Coords, EltTy.bits .f32 = 32 ∨ (Rect.block (s := S128x1024x512) S1x1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S128x1x1024.size a
  hwx0_6 : ∀ i : grid0.Coords, EltTy.bits .f32 = 32 ∨ (Rect.block (s := S128x1x1024) S1x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S128x512x1024.size a
  hwx0_7 : ∀ i : grid0.Coords, EltTy.bits .f32 = 32 ∨ (Rect.block (s := S128x512x1024) S1x512x1024.size (cc0_transform_7 i) (hinb0_7 i)).WholeWords (EltTy.packing .f32)

variable [Facts₀]

def gather_S65536x1024_S65536x1_S65536x1024_1_0_n_n_0_1_11024 : GatherDims S65536x1024 S65536x1 S65536x1024 where
  offsetDims := [1]
  collapsedSliceDims := [0]
  operandBatchingDims := []
  startIndicesBatchingDims := []
  startIndexMap := [0]
  indexVectorDim := 1
  sliceSizes := ![1, 1024]
  wf := gather_S65536x1024_S65536x1_S65536x1024_1_0_n_n_0_1_11024_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def comparator_i32_i32_d0 : BitVec 32 × BitVec 32 → BitVec 32 × BitVec 32 → BitVec 1 :=
  fun l r =>
    let v2 := IntOp.cmpi .slt l.1 r.1
    v2

abbrev win0_0 : Pipeline.Window sig grid0 :=
  Pipeline.Window.ofSpec (Memref.whole main_v9) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x1024x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x4096x1024 : Shape := ⟨3, ![16, 4096, 1024]⟩
abbrev S65536 : Shape := ⟨1, ![65536]⟩
abbrev S128x512x1024 : Shape := ⟨3, ![128, 512, 1024]⟩
abbrev S128x512 : Shape := ⟨2, ![128, 512]⟩
abbrev S128x1024x512 : Shape := ⟨3, ![128, 1024, 512]⟩
abbrev S128x1024 : Shape := ⟨2, ![128, 1024]⟩
abbrev S65536x1024 : Shape := ⟨2, ![65536, 1024]⟩
abbrev S_ : Shape := ⟨0, ![]⟩
abbrev S65536x1 : Shape := ⟨2, ![65536, 1]⟩
abbrev S128x512x512 : Shape := ⟨3, ![128, 512, 512]⟩
abbrev S128x1x512 : Shape := ⟨3, ![128, 1, 512]⟩
abbrev S128x1x1024 : Shape := ⟨3, ![128, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S65536, .i32⟩
  | .hbm, ⟨2, _⟩ => ⟨S128x512x1024, .f32⟩
  | .hbm, ⟨3, _⟩ => ⟨S128x512, .f32⟩
  | .hbm, ⟨4, _⟩ => ⟨S128x1024x512, .f32⟩
  | .hbm, ⟨5, _⟩ => ⟨S128x1024, .f32⟩
  | .hbm, ⟨6, _⟩ => ⟨S128x512x1024, .f32⟩
  | .hbm, ⟨7, _⟩ => ⟨S128x512, .f32⟩
  | .hbm, ⟨8, _⟩ => ⟨S65536x1024, .f32⟩
  | .hbm, ⟨9, _⟩ => ⟨S_, .i32⟩
  | .hbm, ⟨10, _⟩ => ⟨S65536, .i32⟩
  | .hbm, ⟨11, _⟩ => ⟨S65536, .i1⟩
  | .hbm, ⟨12, _⟩ => ⟨S_, .i32⟩
  | .hbm, ⟨13, _⟩ => ⟨S65536, .i32⟩
  | .hbm, ⟨14, _⟩ => ⟨S65536, .i32⟩
  | .hbm, ⟨15, _⟩ => ⟨S65536, .i32⟩
  | .hbm, ⟨16, _⟩ => ⟨S65536x1, .i32⟩
  | .hbm, ⟨17, _⟩ => ⟨S65536x1024, .f32⟩
  | .hbm, ⟨18, _⟩ => ⟨S128x512x1024, .f32⟩
  | .hbm, ⟨19, _⟩ => ⟨S128x512x512, .f32⟩
  | .hbm, ⟨20, _⟩ => ⟨S128x1x512, .f32⟩
  | .hbm, ⟨21, _⟩ => ⟨S128x512x512, .f32⟩
  | .hbm, ⟨22, _⟩ => ⟨S128x512x512, .f32⟩
  | .hbm, ⟨23, _⟩ => ⟨S128x512x512, .f32⟩
  | .hbm, ⟨24, _⟩ => ⟨S128x1x512, .f32⟩
  | .hbm, ⟨25, _⟩ => ⟨S128x512x512, .f32⟩
  | .hbm, ⟨26, _⟩ => ⟨S128x512x512, .f32⟩
  | .hbm, ⟨27, _⟩ => ⟨S128x512x512, .f32⟩
  | .hbm, ⟨28, _⟩ => ⟨S128x512x512, .f32⟩
  | .hbm, ⟨29, _⟩ => ⟨S_, .f32⟩
  | .hbm, ⟨30, _⟩ => ⟨S128x512x512, .f32⟩
  | .hbm, ⟨31, _⟩ => ⟨S128x512x512, .f32⟩
  | .hbm, ⟨32, _⟩ => ⟨S_, .f32⟩
  | .hbm, ⟨33, _⟩ => ⟨S128x512x512, .f32⟩
  | .hbm, ⟨34, _⟩ => ⟨S128x512x512, .f32⟩
  | .hbm, ⟨35, _⟩ => ⟨S128x512x512, .f32⟩
  | .hbm, ⟨36, _⟩ => ⟨S128x512x512, .f32⟩
  | .hbm, ⟨37, _⟩ => ⟨S128x512x1024, .f32⟩
  | .hbm, ⟨38, _⟩ => ⟨S128x1x1024, .f32⟩
  | .hbm, ⟨39, _⟩ => ⟨S128x512x1024, .f32⟩
  | .hbm, ⟨40, _⟩ => ⟨S128x512x1024, .f32⟩
  | .hbm, ⟨41, _⟩ => ⟨S65536x1024, .f32⟩
  | .hbm, ⟨42, _⟩ => ⟨S65536, .i32⟩
  | .hbm, ⟨43, _⟩ => ⟨S65536, .i32⟩
  | .hbm, ⟨44, _⟩ => ⟨S65536, .i32⟩
  | .hbm, ⟨45, _⟩ => ⟨S_, .i32⟩
  | .hbm, ⟨46, _⟩ => ⟨S65536, .i32⟩
  | .hbm, ⟨47, _⟩ => ⟨S65536, .i1⟩
  | .hbm, ⟨48, _⟩ => ⟨S_, .i32⟩
  | .hbm, ⟨49, _⟩ => ⟨S65536, .i32⟩
  | .hbm, ⟨50, _⟩ => ⟨S65536, .i32⟩
  | .hbm, ⟨51, _⟩ => ⟨S65536, .i32⟩
  | .hbm, ⟨52, _⟩ => ⟨S65536x1, .i32⟩
  | .hbm, ⟨53, _⟩ => ⟨S65536x1024, .f32⟩
  | .hbm, ⟨54, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_v0 : Ref sig .tc := ⟨.hbm, 42, rfl⟩
abbrev main_call1_v1_0 : Ref sig .tc := ⟨.hbm, 43, rfl⟩
abbrev main_v24 : Ref sig .tc := ⟨.hbm, 44, rfl⟩
abbrev main_c_1 : Ref sig .tc := ⟨.hbm, 45, rfl⟩
abbrev main_v25 : Ref sig .tc := ⟨.hbm, 46, rfl⟩
abbrev main_v26 : Ref sig .tc := ⟨.hbm, 47, rfl⟩
abbrev main_c_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩

abbrev nD : Nat := 1
abbrev τ : Topo := Topo.v7x

variable {F : FTy → Type} [FloatOps F]

class Facts₀ : Prop where
  shapeCasts_S16x4096x1024_S65536x1024 : S16x4096x1024.ShapeCasts S65536x1024
  bcast_S_S65536 : S_.BroadcastsInDim S65536 (![] : Fin 0 → Fin S65536.rank)
  bcast_S65536_S65536x1_0 : S65536.BroadcastsInDim S65536x1 (![0] : Fin 1 → Fin S65536x1.rank)
  shapeCasts_S65536x1024_S128x512x1024 : S65536x1024.ShapeCasts S128x512x1024
  bcast_S128x512_S128x1x512_0_2 : S128x512.BroadcastsInDim S128x1x512 (![0, 2] : Fin 2 → Fin S128x1x512.rank)
  bcast_S128x1x512_S128x512x512_0_1_2 : S128x1x512.BroadcastsInDim S128x512x512 (![0, 1, 2] : Fin 3 → Fin S128x512x512.rank)
  bcast_S_S128x512x512 : S_.BroadcastsInDim S128x512x512 (![] : Fin 0 → Fin S128x512x512.rank)
  bcast_S128x1024_S128x1x1024_0_2 : S128x1024.BroadcastsInDim S128x1x1024 (![0, 2] : Fin 2 → Fin S128x1x1024.rank)
  bcast_S128x1x1024_S128x512x1024_0_1_2 : S128x1x1024.BroadcastsInDim S128x512x1024 (![0, 1, 2] : Fin 3 → Fin S128x512x1024.rank)
  shapeCasts_S128x512x1024_S65536x1024 : S128x512x1024.ShapeCasts S65536x1024
  shapeCasts_S65536x1024_S16x4096x1024 : S65536x1024.ShapeCasts S16x4096x1024
  gather_S65536x1024_S65536x1_S65536x1024_1_0_n_n_0_1_11024_wf : GatherDims.WF S65536x1024 S65536x1 S65536x1024 [1] [0] [] [0] [] 1 ![1, 1024]
  dot_S128x512x1024_S128x512x1024_S128x512x512_2_2_1_1_0_0_wf : DotDims.WF S128x512x1024 S128x512x1024 S128x512x512 [2] [2] [1] [1] [0] [0]
  dot_S128x512x512_S128x1024x512_S128x512x1024_2_2_1_1_0_0_wf : DotDims.WF S128x512x512 S128x1024x512 S128x512x1024 [2] [2] [1] [1] [0] [0]

variable [Facts₀]

def gather_S65536x1024_S65536x1_S65536x1024_1_0_n_n_0_1_11024 : GatherDims S65536x1024 S65536x1 S65536x1024 where
  offsetDims := [1]
  collapsedSliceDims := [0]
  operandBatchingDims := []
  startIndicesBatchingDims := []
  startIndexMap := [0]
  indexVectorDim := 1
  sliceSizes := ![1, 1024]
  wf := gather_S65536x1024_S65536x1_S65536x1024_1_0_n_n_0_1_11024_wf
def dot_S128x512x1024_S128x512x1024_S128x512x512_2_2_1_1_0_0 : DotDims S128x512x1024 S128x512x1024 S128x512x512 where
  lhsContracting := [2]
  rhsContracting := [2]
  lhsNonContracting := [1]
  rhsNonContracting := [1]
  lhsBatch := [0]
  rhsBatch := [0]
  wf := dot_S128x512x1024_S128x512x1024_S128x512x512_2_2_1_1_0_0_wf
def dot_S128x512x512_S128x1024x512_S128x512x1024_2_2_1_1_0_0 : DotDims S128x512x512 S128x1024x512 S128x512x1024 where
  lhsContracting := [2]
  rhsContracting := [2]
  lhsNonContracting := [1]
  rhsNonContracting := [1]
  lhsBatch := [0]
  rhsBatch := [0]
  wf := dot_S128x512x512_S128x1024x512_S128x512x1024_2_2_1_1_0_0_wf
def comparator_i32_i32_d0 : BitVec 32 × BitVec 32 → BitVec 32 × BitVec 32 → BitVec 1 :=
  fun l r =>
    let v2 := IntOp.cmpi .slt l.1 r.1
    v2

class Facts : Prop extends Facts₀ where

variable [Facts]
-- ==== Proof.Ffn.lean ====
/-
  The mathematics both programs compute, stated once over plain coordinate functions.

  One expert's feed-forward block on its 512 tokens: with X the tokens' rows (512 x 1024), W1, W3 the two
  up-projections (512 x 1024) with biases B1, B3, and W2 the down-projection (1024 x 512) with bias B2,
    pre X W B t f  = (sum over c of X t c * W f c) + B f
    swiglu a b       = (a * logistic a) * b                      (silu a times b)
    ffn ... t c    = (sum over f of swiglu (pre X W1 B1 t f) (pre X W3 B3 t f) * W2 c f) + B2 c.
  The whole result, before the tokens are scattered back, is the array whose entry (e, t, c) is expert e's
  block at (t, c): `moe`. Everything is over the extended reals with the sums in the order of the
  contracted axis, which is the order both programs use, so no law of arithmetic is needed to join them.
-/
import Idealize.ShloMosaic.PureOps.Ideal
import Idealize.ShloMosaic.Lib.ValueIdx

noncomputable section

open scoped BigOperators

namespace Cert.Ffn

open Idealize.ShloMosaic Idealize.ShloMosaic.ValueIdx

/-- A projection with bias: row `t` of `X` against row `f` of `W`, plus `B f`. -/
def pre (X : Fin 512 → Fin 1024 → EReal) (W : Fin 512 → Fin 1024 → EReal) (B : Fin 512 → EReal)
    (t f : Fin 512) : EReal :=
  (∑ c : Fin 1024, X t c * W f c) + B f

/-- The gated activation: `silu a * b` with `silu a = a * logistic a`. -/
def swiglu (a b : EReal) : EReal := a * Ideal.logistic a * b

/-- One expert's block at token `t` and output channel `c`. -/
def ffn (X W1 : Fin 512 → Fin 1024 → EReal) (B1 : Fin 512 → EReal) (W3 : Fin 512 → Fin 1024 → EReal)
    (B3 : Fin 512 → EReal) (W2 : Fin 1024 → Fin 512 → EReal) (B2 : Fin 1024 → EReal)
    (t : Fin 512) (c : Fin 1024) : EReal :=
  (∑ f : Fin 512, swiglu (pre X W1 B1 t f) (pre X W3 B3 t f) * W2 c f) + B2 c

/-- All experts: entry `(e, t, c)` is expert `e`'s block at `(t, c)`, each expert reading its own slice of the
    grouped tokens `xs` and of the six parameter arrays. -/
def moe (xs w1 : (⟨3, ![128, 512, 1024]⟩ : Shape).Idx → EReal) (b1 : (⟨2, ![128, 512]⟩ : Shape).Idx → EReal)
    (w3 : (⟨3, ![128, 512, 1024]⟩ : Shape).Idx → EReal) (b3 : (⟨2, ![128, 512]⟩ : Shape).Idx → EReal)
    (w2 : (⟨3, ![128, 1024, 512]⟩ : Shape).Idx → EReal) (b2 : (⟨2, ![128, 1024]⟩ : Shape).Idx → EReal) :
    (⟨3, ![128, 512, 1024]⟩ : Shape).Idx → EReal := fun i =>
  ffn (fun t c => xs (ix3 (i 0) t c)) (fun f c => w1 (ix3 (i 0) f c)) (fun f => b1 (ix2 (i 0) f))
    (fun f c => w3 (ix3 (i 0) f c)) (fun f => b3 (ix2 (i 0) f))
    (fun c f => w2 (ix3 (i 0) c f)) (fun c => b2 (ix2 (i 0) c)) (i 1) (i 2)

end Cert.Ffn

end
-- ==== Proof.Block.lean ====
/-
  One grid point of the kernel, as mathematics: the body's one store, read at an entry (t, c) of the
  512 x 1024 output block, is the expert block `Cert.Ffn.ffn` of the seven loaded blocks. The two
  up-projections are products into a zero accumulator (plain sums over the 1024 input channels), the
  biases are rows broadcast over the tokens, the activation is `a * logistic a`, the down-projection a sum
  over the 512 hidden channels; changes of float format are the identity on the extended reals, and the
  leading unit axis of every block is dropped or added without moving anything.
-/
import proofs.«143851_j73126113181995_2_alg».proof.Proof.Gen.KernelIdeal.Skeleton
import proofs.«143851_j73126113181995_2_alg».proof.Proof.Ffn
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Ffn

/-- A [1, 512, 1024] block viewed as [512, 1024]: entry (t, c) is the block's (0, t, c). -/
theorem drop_unit_512x1024 (v : S1x512x1024.Idx → EReal) (t : Fin 512) (c : Fin 1024) :
    shapeCast S512x1024 v shapeCasts_S1x512x1024_S512x1024 (ix2 t c) = v (ix3 0 t c) :=
  shapeCast_apply v shapeCasts_S1x512x1024_S512x1024 (ix2 t c) (ix3 0 t c)
    (by rewrite [Shape.rowMajor_val_three, Shape.rowMajor_val_two]
        show (0 * 512 + t.val) * 1024 + c.val = t.val * 1024 + c.val; omega)

/-- A [1, 1024, 512] block viewed as [1024, 512]. -/
theorem drop_unit_1024x512 (v : S1x1024x512.Idx → EReal) (c : Fin 1024) (f : Fin 512) :
    shapeCast S1024x512 v shapeCasts_S1x1024x512_S1024x512 (ix2 c f) = v (ix3 0 c f) :=
  shapeCast_apply v shapeCasts_S1x1024x512_S1024x512 (ix2 c f) (ix3 0 c f)
    (by rewrite [Shape.rowMajor_val_three, Shape.rowMajor_val_two]
        show (0 * 1024 + c.val) * 512 + f.val = c.val * 512 + f.val; omega)

/-- A [1, 1, 512] bias block viewed as a [1, 512] row. -/
theorem drop_unit_1x512 (v : S1x1x512.Idx → EReal) (f : Fin 512) :
    shapeCast S1x512 v shapeCasts_S1x1x512_S1x512 (ix2 0 f) = v (ix3 0 0 f) :=
  shapeCast_apply v shapeCasts_S1x1x512_S1x512 (ix2 0 f) (ix3 0 0 f)
    (by rewrite [Shape.rowMajor_val_three, Shape.rowMajor_val_two]; rfl)

/-- A [1, 1, 1024] bias block viewed as a [1, 1024] row. -/
theorem drop_unit_1x1024 (v : S1x1x1024.Idx → EReal) (c : Fin 1024) :
    shapeCast S1x1024 v shapeCasts_S1x1x1024_S1x1024 (ix2 0 c) = v (ix3 0 0 c) :=
  shapeCast_apply v shapeCasts_S1x1x1024_S1x1024 (ix2 0 c) (ix3 0 0 c)
    (by rewrite [Shape.rowMajor_val_three, Shape.rowMajor_val_two]; rfl)

/-- A [1, 512] row broadcast over 512 tokens reads the row's entry. -/
theorem bcast_row_512 (v : S1x512.Idx → EReal) (t f : Fin 512) :
    broadcastTo S512x512 v broadcasts_S1x512_S512x512 (ix2 t f) = v (ix2 0 f) :=
  broadcastTo_apply v broadcasts_S1x512_S512x512 (ix2 t f) (ix2 0 f) (fun a => by
    match a with
    | ⟨0, _⟩ => rfl
    | ⟨1, _⟩ => rfl)

/-- A [1, 1024] row broadcast over 512 tokens reads the row's entry. -/
theorem bcast_row_1024 (v : S1x1024.Idx → EReal) (t : Fin 512) (c : Fin 1024) :
    broadcastTo S512x1024 v broadcasts_S1x1024_S512x1024 (ix2 t c) = v (ix2 0 c) :=
  broadcastTo_apply v broadcasts_S1x1024_S512x1024 (ix2 t c) (ix2 0 c) (fun a => by
    match a with
    | ⟨0, _⟩ => rfl
    | ⟨1, _⟩ => rfl)

/-- The up-projection's operand indices, coordinate by coordinate: at output entry `i` and contracted position `q`
    the left operand is read at (i 0, q) and the right at (i 1, q). -/
theorem up_lhs_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide),
    dif_pos (show (0 : Fin S512x1024.rank) ∈ dot_S512x1024_S512x1024_S512x512_1_1_0_0_n_n.lhsNonContracting by decide)]
  rfl
theorem up_lhs_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem up_rhs_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide),
    dif_pos (show (0 : Fin S512x1024.rank) ∈ dot_S512x1024_S512x1024_S512x512_1_1_0_0_n_n.rhsNonContracting by decide)]
  rfl
theorem up_rhs_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The up-projection product into a zero accumulator: entry (t, f) is the sum over the 1024 input channels of
    the token row against the weight row. -/
theorem up_apply (l r : S512x1024.Idx → EReal) (t f : Fin 512) :
    matmul (F := Ideal) (φ₁ := .bf16) (φ₂ := .bf16) dot_S512x1024_S512x1024_S512x512_1_1_0_0_n_n none l r
        (constant S512x512 .f32 0x00000000#32) (ix2 t f)
      = ∑ k : Fin 1024, l (ix2 t k) * r (ix2 f k) := by
  simp only [matmul]
  rw [Ideal.matmul_constant_zero_apply,
    ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 t f)
      ((contrEquiv1 dot_S512x1024_S512x1024_S512x512_1_1_0_0_n_n 1024 rfl rfl).symm k) = ix2 t k :=
    funext fun a => Fin.ext (by
      match a with
      | ⟨0, _⟩ => exact up_lhs_0 _ _
      | ⟨1, _⟩ => exact (up_lhs_1 _ _).trans hk)
  have er : dot_S512x1024_S512x1024_S512x512_1_1_0_0_n_n.rhsIdx (ix2 t f)
      ((contrEquiv1 dot_S512x1024_S512x1024_S512x512_1_1_0_0_n_n 1024 rfl rfl).symm k) = ix2 f k :=
    funext fun a => Fin.ext (by
      match a with
      | ⟨0, _⟩ => exact up_rhs_0 _ _
      | ⟨1, _⟩ => exact (up_rhs_1 _ _).trans hk)
  rw [el, er]

/-- The down-projection's operand indices: the left operand at (i 0, q), the right at (i 1, q). -/
theorem down_lhs_0 (i : S512x1024.Idx) (q : dot_S512x512_S1024x512_S512x1024_1_1_0_0_n_n.contr.Idx) :
    (dot_S512x512_S1024x512_S512x1024_1_1_0_0_n_n.lhsIdx i q 0).val = (i 0).val := by
  unfold DotDims.lhsIdx
  rw [dif_neg (show ¬(0 : Fin S512x512.rank) ∈ dot_S512x512_S1024x512_S512x1024_1_1_0_0_n_n.lhsBatch by decide),
    dif_pos (show (0 : Fin S512x512.rank) ∈ dot_S512x512_S1024x512_S512x1024_1_1_0_0_n_n.lhsNonContracting by decide)]
  rfl
theorem down_lhs_1 (i : S512x1024.Idx) (q : dot_S512x512_S1024x512_S512x1024_1_1_0_0_n_n.contr.Idx) :
    (dot_S512x512_S1024x512_S512x1024_1_1_0_0_n_n.lhsIdx i q 1).val = (q ⟨0, by decide⟩).val :=
  dot_S512x512_S1024x512_S512x1024_1_1_0_0_n_n.lhsIdx_val_of_single rfl i q
theorem down_rhs_0 (i : S512x1024.Idx) (q : dot_S512x512_S1024x512_S512x1024_1_1_0_0_n_n.contr.Idx) :
    (dot_S512x512_S1024x512_S512x1024_1_1_0_0_n_n.rhsIdx i q 0).val = (i 1).val := by
  unfold DotDims.rhsIdx
  rw [dif_neg (show ¬(0 : Fin S1024x512.rank) ∈ dot_S512x512_S1024x512_S512x1024_1_1_0_0_n_n.rhsBatch by decide),
    dif_pos (show (0 : Fin S1024x512.rank) ∈ dot_S512x512_S1024x512_S512x1024_1_1_0_0_n_n.rhsNonContracting by decide)]
  rfl
theorem down_rhs_1 (i : S512x1024.Idx) (q : dot_S512x512_S1024x512_S512x1024_1_1_0_0_n_n.contr.Idx) :
    (dot_S512x512_S1024x512_S512x1024_1_1_0_0_n_n.rhsIdx i q 1).val = (q ⟨0, by decide⟩).val :=
  dot_S512x512_S1024x512_S512x1024_1_1_0_0_n_n.rhsIdx_val_of_single rfl i q

/-- The down-projection product into a zero accumulator: entry (t, c) is the sum over the 512 hidden channels. -/
theorem down_apply (l : S512x512.Idx → EReal) (r : S1024x512.Idx → EReal) (t : Fin 512) (c : Fin 1024) :
    matmul (F := Ideal) (φ₁ := .bf16) (φ₂ := .bf16) dot_S512x512_S1024x512_S512x1024_1_1_0_0_n_n none l r
        (constant S512x1024 .f32 0x00000000#32) (ix2 t c)
      = ∑ k : Fin 512, l (ix2 t k) * r (ix2 c k) := by
  simp only [matmul]
  rw [Ideal.matmul_constant_zero_apply,
    ← Equiv.sum_comp (contrEquiv1 dot_S512x512_S1024x512_S512x1024_1_1_0_0_n_n 512 rfl rfl).symm]
  refine Finset.sum_congr rfl fun k _ => ?_
  have hk := contrEquiv1_symm_val dot_S512x512_S1024x512_S512x1024_1_1_0_0_n_n 512 rfl rfl k
  have el : dot_S512x512_S1024x512_S512x1024_1_1_0_0_n_n.lhsIdx (ix2 t c)
      ((contrEquiv1 dot_S512x512_S1024x512_S512x1024_1_1_0_0_n_n 512 rfl rfl).symm k) = ix2 t k :=
    funext fun a => Fin.ext (by
      match a with
      | ⟨0, _⟩ => exact down_lhs_0 _ _
      | ⟨1, _⟩ => exact (down_lhs_1 _ _).trans hk)
  have er : dot_S512x512_S1024x512_S512x1024_1_1_0_0_n_n.rhsIdx (ix2 t c)
      ((contrEquiv1 dot_S512x512_S1024x512_S512x1024_1_1_0_0_n_n 512 rfl rfl).symm k) = ix2 c k :=
    funext fun a => Fin.ext (by
      match a with
      | ⟨0, _⟩ => exact down_rhs_0 _ _
      | ⟨1, _⟩ => exact (down_rhs_1 _ _).trans hk)
  rw [el, er]

/-- A projection with bias, read at an entry: the product's sum plus the bias row's entry. -/
theorem pre_apply (x0 : Vec Ideal S1x512x1024 .bf16) (w : Vec Ideal S1x512x1024 .f32) (b : Vec Ideal S1x1x512 .f32)
    (t f : Fin 512) :
    addf (F := Ideal) (φ := .f32)
        (matmul dot_S512x1024_S512x1024_S512x512_1_1_0_0_n_n none
          (shapeCast S512x1024 x0 shapeCasts_S1x512x1024_S512x1024 : FVec Ideal S512x1024 .bf16)
          (truncf .bf16 (shapeCast S512x1024 w shapeCasts_S1x512x1024_S512x1024 : FVec Ideal S512x1024 .f32) bitsLt_bf16_f32)
          (constant S512x512 .f32 0x00000000#32))
        (broadcastTo S512x512 (shapeCast S1x512 b shapeCasts_S1x1x512_S1x512) broadcasts_S1x512_S512x512) (ix2 t f)
      = pre (fun t c => x0 (ix3 0 t c)) (fun f c => w (ix3 0 f c)) (fun f => b (ix3 0 0 f)) t f := by
  rw [addf_apply, up_apply, bcast_row_512, drop_unit_1x512]
  unfold pre
  congr 1
  refine Finset.sum_congr rfl fun k _ => ?_
  rw [drop_unit_512x1024, truncf_apply, drop_unit_512x1024]

/-- THE BODY'S STORE AT AN ENTRY: the stored block's entry (0, t, c) is the expert block of the loaded blocks. -/
theorem payload_apply (x0 : Vec Ideal S1x512x1024 .bf16) (x1 x3 : Vec Ideal S1x512x1024 .f32)
    (x2 x4 : Vec Ideal S1x1x512 .f32) (x5 : Vec Ideal S1x1024x512 .f32) (x6 : Vec Ideal S1x1x1024 .f32)
    (t : Fin 512) (c : Fin 1024) :
    k0_pay1 (F := Ideal) (k0_pay2 x0 x1 x3 x2 x4 x5 x6) (ix3 0 t c)
      = ffn (fun t c => x0 (ix3 0 t c)) (fun f c => x1 (ix3 0 f c)) (fun f => x2 (ix3 0 0 f))
          (fun f c => x3 (ix3 0 f c)) (fun f => x4 (ix3 0 0 f))
          (fun c f => x5 (ix3 0 c f)) (fun c => x6 (ix3 0 0 c)) t c := by
  unfold k0_pay1
  refine (shapeCast_apply _ shapeCasts_S512x1024_S1x512x1024 (ix3 0 t c) (ix2 t c)
    (by rewrite [Shape.rowMajor_val_two, Shape.rowMajor_val_three]
        show t.val * 1024 + c.val = (0 * 512 + t.val) * 1024 + c.val; omega)).trans ?_
  unfold k0_pay2
  rw [addf_apply, down_apply, bcast_row_1024, drop_unit_1x1024]
  unfold ffn
  congr 1
  refine Finset.sum_congr rfl fun k _ => ?_
  rw [← pre_apply x0 x1 x2 t k, ← pre_apply x0 x3 x4 t k, truncf_apply, truncf_apply, drop_unit_1024x512]
  rfl

end Cert.KernelIdeal.Block

end
-- ==== Proof.Blocks.lean ====
/-
  From the grid's blocks to the whole output array. Grid point t is expert t: every window's block at point t
  is slice t of its array along the leading axis (block index (t, 0, 0) for all eight windows). So what point
  t writes back is slice t of ONE array, `regionOut`: entry (e, tok, ch) is expert e's block `Cert.Ffn.ffn` of
  slice e of the seven operand arrays as the region finds them. The 128 slices tile the output, so after the
  run the output array is `regionOut`.
-/
import proofs.«143851_j73126113181995_2_alg».proof.Proof.Gen.KernelIdeal.Frame
import proofs.«143851_j73126113181995_2_alg».proof.Proof.Block
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
  Idealize.ShloMosaic.ValueIdx Cert.Ffn
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl

/-- The expert a grid point works on: the point's number. -/
def expertOf (t : Fin cfg0.N) : Fin 128 := ⟨t.val, by have h := t.isLt; have hN : cfg0.N = 128 := N_0; omega⟩

/-- Every window's block index at point t is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

/-- The output array after the run, as one function of the operand arrays the region finds. -/
def regionOut (c : Dev nD) : S128x512x1024.Idx → EReal := fun i =>
  ffn (fun tok k => (V m c main_v9 : S128x512x1024.Idx → EReal) (ix3 (i 0) tok k))
    (fun f k => (V m c main_arg2 : S128x512x1024.Idx → EReal) (ix3 (i 0) f k))
    (fun f => (V m c main_v10 : S128x1x512.Idx → EReal) (ix3 (i 0) 0 f))
    (fun f k => (V m c main_arg6 : S128x512x1024.Idx → EReal) (ix3 (i 0) f k))
    (fun f => (V m c main_v11 : S128x1x512.Idx → EReal) (ix3 (i 0) 0 f))
    (fun ch f => (V m c main_arg4 : S128x1024x512.Idx → EReal) (ix3 (i 0) ch f))
    (fun ch => (V m c main_v12 : S128x1x1024.Idx → EReal) (ix3 (i 0) 0 ch)) (i 1) (i 2)

/-- The tokens' block at point t is slice t of the grouped tokens. -/
theorem iblk0_apply (c : Dev nD) (t : Fin cfg0.N) (a : Fin 512) (b : Fin 1024) :
    (iblk m c 0 t : Vec Ideal S1x512x1024 .bf16) (ix3 0 a b)
      = (V m c main_v9 : S128x512x1024.Idx → EReal) (ix3 (expertOf t) a b) := by
  obtain ⟨⟨e0, e1, e2⟩, -⟩ := idx_facts t
  unfold iblk
  rw [View.read_apply]
  show V m c main_v9 _ = V m c main_v9 _
  congr 1
  funext ax
  apply Fin.ext
  match ax with
  | ⟨0, _⟩ => show win0_0.index t (0 : Fin 3) * 1 + 1 * 0 = t.val; omega
  | ⟨1, _⟩ => show win0_0.index t (1 : Fin 3) * 512 + 1 * a.val = a.val; omega
  | ⟨2, _⟩ => show win0_0.index t (2 : Fin 3) * 1024 + 1 * b.val = b.val; omega

/-- Each parameter's block at point t is slice t of its array. -/
theorem iblk1_apply (c : Dev nD) (t : Fin cfg0.N) (a : Fin 512) (b : Fin 1024) :
    (iblk m c 1 t : Vec Ideal S1x512x1024 .f32) (ix3 0 a b)
      = (V m c main_arg2 : S128x512x1024.Idx → EReal) (ix3 (expertOf t) a b) := by
  obtain ⟨-, ⟨e0, e1, e2⟩, -⟩ := idx_facts t
  unfold iblk
  rw [View.read_apply]
  show V m c main_arg2 _ = V m c main_arg2 _
  congr 1
  funext ax
  apply Fin.ext
  match ax with
  | ⟨0, _⟩ => show win0_1.index t (0 : Fin 3) * 1 + 1 * 0 = t.val; omega
  | ⟨1, _⟩ => show win0_1.index t (1 : Fin 3) * 512 + 1 * a.val = a.val; omega
  | ⟨2, _⟩ => show win0_1.index t (2 : Fin 3) * 1024 + 1 * b.val = b.val; omega

theorem iblk2_apply (c : Dev nD) (t : Fin cfg0.N) (b : Fin 512) :
    (iblk m c 2 t : Vec Ideal S1x1x512 .f32) (ix3 0 0 b)
      = (V m c main_v10 : S128x1x512.Idx → EReal) (ix3 (expertOf t) 0 b) := by
  obtain ⟨-, -, ⟨e0, e1, e2⟩, -⟩ := idx_facts t
  unfold iblk
  rw [View.read_apply]
  show V m c main_v10 _ = V m c main_v10 _
  congr 1
  funext ax
  apply Fin.ext
  match ax with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 512 + 1 * b.val = b.val; omega

theorem iblk3_apply (c : Dev nD) (t : Fin cfg0.N) (a : Fin 512) (b : Fin 1024) :
    (iblk m c 3 t : Vec Ideal S1x512x1024 .f32) (ix3 0 a b)
      = (V m c main_arg6 : S128x512x1024.Idx → EReal) (ix3 (expertOf t) a b) := by
  obtain ⟨-, -, -, ⟨e0, e1, e2⟩, -⟩ := idx_facts t
  unfold iblk
  rw [View.read_apply]
  show V m c main_arg6 _ = V m c main_arg6 _
  congr 1
  funext ax
  apply Fin.ext
  match ax with
  | ⟨0, _⟩ => show win0_3.index t (0 : Fin 3) * 1 + 1 * 0 = t.val; omega
  | ⟨1, _⟩ => show win0_3.index t (1 : Fin 3) * 512 + 1 * a.val = a.val; omega
  | ⟨2, _⟩ => show win0_3.index t (2 : Fin 3) * 1024 + 1 * b.val = b.val; omega

theorem iblk4_apply (c : Dev nD) (t : Fin cfg0.N) (b : Fin 512) :
    (iblk m c 4 t : Vec Ideal S1x1x512 .f32) (ix3 0 0 b)
      = (V m c main_v11 : S128x1x512.Idx → EReal) (ix3 (expertOf t) 0 b) := by
  obtain ⟨-, -, -, -, ⟨e0, e1, e2⟩, -⟩ := idx_facts t
  unfold iblk
  rw [View.read_apply]
  show V m c main_v11 _ = V m c main_v11 _
  congr 1
  funext ax
  apply Fin.ext
  match ax with
  | ⟨0, _⟩ => show win0_4.index t (0 : Fin 3) * 1 + 1 * 0 = t.val; omega
  | ⟨1, _⟩ => show win0_4.index t (1 : Fin 3) * 1 + 1 * 0 = 0; omega
  | ⟨2, _⟩ => show win0_4.index t (2 : Fin 3) * 512 + 1 * b.val = b.val; omega

theorem iblk5_apply (c : Dev nD) (t : Fin cfg0.N) (a : Fin 1024) (b : Fin 512) :
    (iblk m c 5 t : Vec Ideal S1x1024x512 .f32) (ix3 0 a b)
      = (V m c main_arg4 : S128x1024x512.Idx → EReal) (ix3 (expertOf t) a b) := by
  obtain ⟨-, -, -, -, -, ⟨e0, e1, e2⟩, -⟩ := idx_facts t
  unfold iblk
  rw [View.read_apply]
  show V m c main_arg4 _ = V m c main_arg4 _
  congr 1
  funext ax
  apply Fin.ext
  match ax with
  | ⟨0, _⟩ => show win0_5.index t (0 : Fin 3) * 1 + 1 * 0 = t.val; omega
  | ⟨1, _⟩ => show win0_5.index t (1 : Fin 3) * 1024 + 1 * a.val = a.val; omega
  | ⟨2, _⟩ => show win0_5.index t (2 : Fin 3) * 512 + 1 * b.val = b.val; omega

theorem iblk6_apply (c : Dev nD) (t : Fin cfg0.N) (b : Fin 1024) :
    (iblk m c 6 t : Vec Ideal S1x1x1024 .f32) (ix3 0 0 b)
      = (V m c main_v12 : S128x1x1024.Idx → EReal) (ix3 (expertOf t) 0 b) := by
  obtain ⟨-, -, -, -, -, -, ⟨e0, e1, e2⟩, -⟩ := idx_facts t
  unfold iblk
  rw [View.read_apply]
  show V m c main_v12 _ = V m c main_v12 _
  congr 1
  funext ax
  apply Fin.ext
  match ax with
  | ⟨0, _⟩ => show win0_6.index t (0 : Fin 3) * 1 + 1 * 0 = t.val; omega
  | ⟨1, _⟩ => show win0_6.index t (1 : Fin 3) * 1 + 1 * 0 = 0; omega
  | ⟨2, _⟩ => show win0_6.index t (2 : Fin 3) * 1024 + 1 * b.val = b.val; omega

/-- WHAT POINT t WRITES BACK is slice t of `regionOut`. -/
theorem flushed_eq (c : Dev nD) (t : Fin cfg0.N) :
    (dats m 0 c).flushed 7 t = ((cfg0.win 7).blk t).view.read (Elt Ideal) (regionOut m c) := by
  show (cfg0.win 7).cut (grid0.coords t) ((dats m 0 c).after 7 t) = _
  rw [after0_7]
  unfold out0_7
  rw [View.canon_unit_zero hz3]
  simp only [View.ld_unit_zero (S := S1x512x1024) hz3, View.ld_unit_zero (S := S1x1x512) hz3,
    View.ld_unit_zero (S := S1x1024x512) hz3, View.ld_unit_zero (S := S1x1x1024) hz3]
  obtain ⟨-, -, -, -, -, -, -, e0, e1, e2⟩ := idx_facts t
  refine funext fun (j : S1x512x1024.Idx) => ?_
  obtain ⟨tok, ch, rfl⟩ : ∃ (tok : Fin 512) (ch : Fin 1024), j = ix3 0 tok ch :=
    ⟨j 1, j 2, by funext a; match a with | ⟨0, _⟩ => exact Fin.ext (by have h : (j 0).val < 1 := (j 0).isLt; show (j 0).val = 0; omega) | ⟨1, _⟩ => rfl | ⟨2, _⟩ => rfl⟩
  show k0_pay1 (k0_pay2 (iblk m c 0 t) (iblk m c 1 t) (iblk m c 3 t) (iblk m c 2 t) (iblk m c 4 t) (iblk m c 5 t) (iblk m c 6 t)) (ix3 0 tok ch)
    = regionOut m c (((cfg0.win 7).blk t).view.emb (ix3 0 tok ch))
  refine (Block.payload_apply (iblk m c 0 t) (iblk m c 1 t) (iblk m c 3 t) (iblk m c 2 t) (iblk m c 4 t)
    (iblk m c 5 t) (iblk m c 6 t) tok ch).trans ?_
  have hemb : ((cfg0.win 7).blk t).view.emb (ix3 0 tok ch) = (ix3 (expertOf t) tok ch : S128x512x1024.Idx) := by
    funext ax
    apply Fin.ext
    match ax with
    | ⟨0, _⟩ => show win0_7.index t (0 : Fin 3) * 1 + 1 * 0 = t.val; omega
    | ⟨1, _⟩ => show win0_7.index t (1 : Fin 3) * 512 + 1 * tok.val = tok.val; omega
    | ⟨2, _⟩ => show win0_7.index t (2 : Fin 3) * 1024 + 1 * ch.val = ch.val; omega
  rw [hemb]
  unfold regionOut
  simp only [iblk0_apply, iblk1_apply, iblk2_apply, iblk3_apply, iblk4_apply, iblk5_apply, iblk6_apply]

/-- An index of the output is in point t's block iff each coordinate is in the block's range on its axis. -/
theorem mem_blk (t : Fin cfg0.N) (i : S128x512x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v13).slice (win0_7.rect t)).set ↔ _
  rw [View.set_slice_whole, Rect.mem_set_unit]
  exact Iff.rfl

/-- Every entry (e, tok, ch) of the output is in the block of point e. -/
theorem covered (i : S128x512x1024.Idx) :
    ∃ t : Fin cfg0.N, (cfg0.win 7).flush t = true ∧ i ∈ ((cfg0.win 7).blk t).view.set := by
  have hN : cfg0.N = 128 := N_0
  have h0 : (i 0).val < 128 := (i 0).isLt
  have h1 : (i 1).val < 512 := (i 1).isLt
  have h2 : (i 2).val < 1024 := (i 2).isLt
  refine ⟨⟨(i 0).val, by omega⟩, flush0_7 _, ?_⟩
  obtain ⟨-, -, -, -, -, -, -, e0, e1, e2⟩ := idx_facts ⟨(i 0).val, by omega⟩
  rw [mem_blk]
  intro a
  match a with
  | ⟨0, _⟩ =>
    show win0_7.index ⟨(i 0).val, _⟩ (0 : Fin 3) * 1 ≤ (i 0).val ∧ (i 0).val < win0_7.index ⟨(i 0).val, _⟩ (0 : Fin 3) * 1 + 1
    have e0' : win0_7.index ⟨(i 0).val, _⟩ (0 : Fin 3) = (i 0).val := e0
    omega
  | ⟨1, _⟩ =>
    show win0_7.index ⟨(i 0).val, _⟩ (1 : Fin 3) * 512 ≤ (i 1).val ∧ (i 1).val < win0_7.index ⟨(i 0).val, _⟩ (1 : Fin 3) * 512 + 512
    omega
  | ⟨2, _⟩ =>
    show win0_7.index ⟨(i 0).val, _⟩ (2 : Fin 3) * 1024 ≤ (i 2).val ∧ (i 2).val < win0_7.index ⟨(i 0).val, _⟩ (2 : Fin 3) * 1024 + 1024
    omega

/-- THE OUTPUT ARRAY after the run is `regionOut`. -/
theorem final (c : Dev nD) : (dats m 0 c).arrAt 7 cfg0.N = regionOut m c :=
  (dats m 0 c).arrAt_eq_of_cover 7 (regionOut m c) (fun t _ => flushed_eq m c t) covered

end Cert.KernelIdeal.Blocks

end
-- ==== Proof.Entry.lean ====
/-
  What the kernel's region finds in its operand arrays. Three of the seven operands are arguments untouched
  (the weight arrays); three are the bias arguments with a unit axis inserted; and the first is the grouped
  tokens: the input flattened to 65536 rows, converted to the narrower float format (the identity on the
  extended reals), its rows gathered at the given indices (a negative index counted from the end, as the
  host normalises it) and regrouped 512 rows per expert.
-/
import proofs.«143851_j73126113181995_2_alg».proof.Proof.Gen.KernelIdeal.Frame
import Idealize.ShloMosaic.Lib.StableHlo.Run

noncomputable section

namespace Cert.KernelIdeal.Entry

open Cert.KernelIdeal Cert.KernelIdeal.Gen Idealize.ShloMosaic Idealize.ShloMosaic.TcCoe Idealize.SL.Sem
  Idealize.ShloMosaic.StableHlo

variable {F : FTy → Type} [FloatOps F]
variable (m : (ℓ : Loc nD τ sig) → Buf (Elt F) ℓ)

/-- The row indices as the host's gather takes them: an index below zero has 65536 added, and the vector is
    given a trailing unit axis. -/
def rowIdx (x1 : (⟨S65536, .i32⟩ : BufTy).Contents (Elt F)) : (⟨S65536x1, .i32⟩ : BufTy).Contents (Elt F) :=
  broadcastInDim S65536x1 ![0] bcast_S65536_S65536x1_0
    (select (cmpi .slt x1 (broadcastInDim S65536 ![] bcast_S_S65536 (constantI S_ 32 0#32)))
      (addi x1 (broadcastInDim S65536 ![] bcast_S_S65536 (constantI S_ 32 65536#32))) x1)

/-- The grouped tokens: the flattened input's rows gathered at `rowIdx`, 512 rows per expert. -/
def grouped (x0 : (⟨S16x4096x1024, .f32⟩ : BufTy).Contents (Elt F)) (x1 : (⟨S65536, .i32⟩ : BufTy).Contents (Elt F)) :
    (⟨S128x512x1024, .bf16⟩ : BufTy).Contents (Elt F) :=
  shapeCast _ (Host.gather gather_S65536x1024_S65536x1_S65536x1024_1_0_n_n_0_1_11024
    (truncf .bf16 (shapeCast _ x0 shapeCasts_S16x4096x1024_S65536x1024 : FVec F S65536x1024 .f32) bitsLt_bf16_f32)
    (rowIdx x1)) shapeCasts_S65536x1024_S128x512x1024

/-- Operand 0 of the kernel is the grouped tokens of the two arguments. -/
theorem entry_tokens (c : Dev nD) :
    (V m c main_v9 : (⟨S128x512x1024, .bf16⟩ : BufTy).Contents (Elt F))
      = grouped (m ((c : Thread nD τ).loc main_arg0)) (m ((c : Thread nD τ).loc main_arg1)) := by
  show StableHlo.after hostOps0 (fun b => m (c, b)) (Proc.devRef .tc main_v9) = _
  after_results
  rfl

/-- Operand 2 is the first bias argument with a unit axis inserted. -/
theorem entry_b1 (c : Dev nD) :
    (V m c main_v10 : (⟨S128x1x512, .f32⟩ : BufTy).Contents (Elt F))
      = shapeCast _ (m ((c : Thread nD τ).loc main_arg3)) shapeCasts_S128x512_S128x1x512 := by
  show StableHlo.after hostOps0 (fun b => m (c, b)) (Proc.devRef .tc main_v10) = _
  after_results
  rfl

/-- Operand 4 is the third bias argument with a unit axis inserted. -/
theorem entry_b3 (c : Dev nD) :
    (V m c main_v11 : (⟨S128x1x512, .f32⟩ : BufTy).Contents (Elt F))
      = shapeCast _ (m ((c : Thread nD τ).loc main_arg7)) shapeCasts_S128x512_S128x1x512 := by
  show StableHlo.after hostOps0 (fun b => m (c, b)) (Proc.devRef .tc main_v11) = _
  after_results
  rfl

/-- Operand 6 is the second bias argument with a unit axis inserted. -/
theorem entry_b2 (c : Dev nD) :
    (V m c main_v12 : (⟨S128x1x1024, .f32⟩ : BufTy).Contents (Elt F))
      = shapeCast _ (m ((c : Thread nD τ).loc main_arg5)) shapeCasts_S128x1024_S128x1x1024 := by
  show StableHlo.after hostOps0 (fun b => m (c, b)) (Proc.devRef .tc main_v12) = _
  after_results
  rfl

end Cert.KernelIdeal.Entry

end
-- ==== Proof.KernelRun.lean ====
/-
  The kernel program's run, read: after the region the host flattens the output array to 65536 rows, sorts the
  given indices (a stable sort carrying the positions 0..65535 along: the second component is the sorting
  permutation), and gathers the output's rows at that permutation, then restores the input's shape. With the
  region's output array known (`Blocks.final`), the program's result is `combine` of it.
-/
import proofs.«143851_j73126113181995_2_alg».proof.Proof.Blocks
import proofs.«143851_j73126113181995_2_alg».proof.Proof.Entry
import Idealize.ShloMosaic.Lib.StableHlo.Run

noncomputable section

namespace Cert.KernelIdeal.KernelRun

open Cert.KernelIdeal Cert.KernelIdeal.Gen Idealize.ShloMosaic Idealize.ShloMosaic.TcCoe Idealize.SL.Sem
  Idealize.ShloMosaic.StableHlo
open Idealize.ShloMosaic.Pipeline (Dat)

variable (m : (ℓ : Loc nD τ sig) → Buf (Elt Ideal) ℓ) (ρ : Dev nD → PrngReg)

/-- The scatter back to the original token order: the expert-grouped output `out` flattened to rows, the rows
    gathered at the permutation that sorts the indices `x1`, the input's shape restored. -/
def combine (out : (⟨S128x512x1024, .f32⟩ : BufTy).Contents (Elt Ideal)) (x1 : (⟨S65536, .i32⟩ : BufTy).Contents (Elt Ideal)) :
    (⟨S16x4096x1024, .f32⟩ : BufTy).Contents (Elt Ideal) :=
  shapeCast _ (Host.gather gather_S65536x1024_S65536x1_S65536x1024_1_0_n_n_0_1_11024
    (shapeCast _ out shapeCasts_S128x512x1024_S65536x1024 : FVec Ideal S65536x1024 .f32)
    (Entry.rowIdx (F := Ideal) ((Host.sort2 S65536 0 comparator_i32_i32_d0 x1 (iotaInDim S65536 32 0)).2)))
    shapeCasts_S65536x1024_S16x4096x1024

set_option maxRecDepth 8192 in
set_option maxHeartbeats 2000000 in
/-- The program's result buffer after the host's lines that follow the region. -/
theorem tail_eq (c : Dev nD) :
    Pipeline.afterTail₀ cfgs (dats m) 0 (V0 m) [hostOps1, hostOps1_1, hostOps1_2] c main_v23
      = combine ((dats m 0 c).arrAt 7 cfg0.N) (m ((c : Thread nD τ).loc main_arg1)) := by
  unfold Pipeline.afterTail₀
  simp only [hostOps1, hostOps1_1, hostOps1_2, List.flatten_cons, List.flatten_nil, List.append_nil, List.cons_append,
    List.nil_append]
  after_results_simp
  have hout : Pipeline.withArrays (cfgs 0).spec c (V0 m c) (fun w => (dats m 0 c).arrAt w (cfgs 0).N)
      (Proc.devRef .tc main_v13) = (dats m 0 c).arrAt 7 cfg0.N :=
    Pipeline.withArrays_arr spec0 launch0.win.arr_inj c _ _ 7
  have hidx : Pipeline.withArrays (cfgs 0).spec c (V0 m c) (fun w => (dats m 0 c).arrAt w (cfgs 0).N)
      (Proc.devRef .tc main_arg1) = m ((c : Thread nD τ).loc main_arg1) :=
    (Pipeline.withArrays_of_ne _ c (V0 m c) _ main_arg1
      (by exact (by decide : ∀ w, Pipeline.arrRef spec0 w ≠ main_arg1))).trans (V_main_arg1 m c)
  rw [hout, hidx]
  rfl

/-- A bias with a unit axis inserted, [128, 512] viewed as [128, 1, 512], read at (e, 0, f). -/
theorem ins_unit_512 (v : S128x512.Idx → EReal) (e : Fin 128) (f : Fin 512) :
    shapeCast S128x1x512 v shapeCasts_S128x512_S128x1x512 (ValueIdx.ix3 e 0 f) = v (ValueIdx.ix2 e f) :=
  shapeCast_apply v shapeCasts_S128x512_S128x1x512 (ValueIdx.ix3 e 0 f) (ValueIdx.ix2 e f)
    (by rewrite [Shape.rowMajor_val_two, Shape.rowMajor_val_three]
        show e.val * 512 + f.val = (e.val * 1 + 0) * 512 + f.val; omega)

/-- The same for [128, 1024] viewed as [128, 1, 1024]. -/
theorem ins_unit_1024 (v : S128x1024.Idx → EReal) (e : Fin 128) (ch : Fin 1024) :
    shapeCast S128x1x1024 v shapeCasts_S128x1024_S128x1x1024 (ValueIdx.ix3 e 0 ch) = v (ValueIdx.ix2 e ch) :=
  shapeCast_apply v shapeCasts_S128x1024_S128x1x1024 (ValueIdx.ix3 e 0 ch) (ValueIdx.ix2 e ch)
    (by rewrite [Shape.rowMajor_val_two, Shape.rowMajor_val_three]
        show e.val * 1024 + ch.val = (e.val * 1 + 0) * 1024 + ch.val; omega)

/-- The expert block depends on its three bias rows only through their entries. -/
theorem ffn_congr_biases {X W1 W3 : Fin 512 → Fin 1024 → EReal} {W2 : Fin 1024 → Fin 512 → EReal}
    {B1 B1' B3 B3' : Fin 512 → EReal} {B2 B2' : Fin 1024 → EReal} {t : Fin 512} {ch : Fin 1024}
    (h1 : B1 = B1') (h3 : B3 = B3') (h2 : B2 = B2') :
    Cert.Ffn.ffn X W1 B1 W3 B3 W2 B2 t ch = Cert.Ffn.ffn X W1 B1' W3 B3' W2 B2' t ch := by
  subst h1 h3 h2; rfl

/-- The expert-grouped output as a function of the program's ARGUMENTS: the region's operand arrays spelt out. -/
theorem regionOut_eq (c : Dev nD) :
    Blocks.regionOut m c
      = Cert.Ffn.moe (Entry.grouped (F := Ideal) (m ((c : Thread nD τ).loc main_arg0)) (m ((c : Thread nD τ).loc main_arg1)))
          (m ((c : Thread nD τ).loc main_arg2)) (m ((c : Thread nD τ).loc main_arg3))
          (m ((c : Thread nD τ).loc main_arg6)) (m ((c : Thread nD τ).loc main_arg7))
          (m ((c : Thread nD τ).loc main_arg4)) (m ((c : Thread nD τ).loc main_arg5)) := by
  funext i
  obtain ⟨e, tok, ch, rfl⟩ : ∃ (e : Fin 128) (tok : Fin 512) (ch : Fin 1024), i = ValueIdx.ix3 e tok ch :=
    ⟨i 0, i 1, i 2, ValueIdx.eq_ix3 i⟩
  unfold Blocks.regionOut Cert.Ffn.moe
  rw [Entry.entry_tokens, V_main_arg2, Entry.entry_b1, V_main_arg6, Entry.entry_b3, V_main_arg4, Entry.entry_b2]
  exact ffn_congr_biases (funext fun f => ins_unit_512 _ e f) (funext fun f => ins_unit_512 _ e f)
    (funext fun cc => ins_unit_1024 _ e cc)

/-- The program's result as a function of its arguments. -/
abbrev result (c : Dev nD) : Buf (Elt Ideal) ((c : Thread nD τ).loc main_v23) :=
  combine (Cert.Ffn.moe (Entry.grouped (F := Ideal) (m ((c : Thread nD τ).loc main_arg0)) (m ((c : Thread nD τ).loc main_arg1)))
      (m ((c : Thread nD τ).loc main_arg2)) (m ((c : Thread nD τ).loc main_arg3))
      (m ((c : Thread nD τ).loc main_arg6)) (m ((c : Thread nD τ).loc main_arg7))
      (m ((c : Thread nD τ).loc main_arg4)) (m ((c : Thread nD τ).loc main_arg5)))
    (m ((c : Thread nD τ).loc main_arg1))

/-- THE KERNEL PROGRAM'S RUN, READ: it terminates with the result buffer at `result` and the arguments unchanged. -/
theorem run : θ_run defs (onTc (τ := τ) (main (F := Ideal))) ⟨m, fun _ => 0, ρ⟩ (fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v23 (Pipeline.mem_restRefs_of main_v23 (by decide) (by decide))).trans
        ((tail_eq m c).trans (by rw [Blocks.final, regionOut_eq])),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      ((h c).1 5).trans (((dats m 0 c).arrAt_in 5 rfl _).trans ((A_eq m c 5).trans (V_main_arg4 m c))),
      (((h c).2 main_arg5 (Pipeline.mem_restRefs_of main_arg5 (by decide) (by decide))).trans (W_main_arg5 m (dats m) c)),
      ((h c).1 3).trans (((dats m 0 c).arrAt_in 3 rfl _).trans ((A_eq m c 3).trans (V_main_arg6 m c))),
      (((h c).2 main_arg7 (Pipeline.mem_restRefs_of main_arg7 (by decide) (by decide))).trans (W_main_arg7 m (dats m) c))⟩)
    (run_main m ρ)

end Cert.KernelIdeal.KernelRun

end
-- ==== Proof.Reference.lean ====
/-
  The reference, read index by index: its expert-grouped output (the array it forms before scattering the
  tokens back) is `Cert.Ffn.moe` of its grouped tokens and the six parameter arrays. Its two batched products
  are sums over the contracted axis at a fixed expert, its biases are broadcast over the tokens through an
  inserted unit axis, and its activation is spelt x * (1 / (1 + exp (-x))), which is x * logistic x.
-/
import proofs.«143851_j73126113181995_2_alg».proof.Proof.Gen.ReferenceIdeal.Read
import proofs.«143851_j73126113181995_2_alg».proof.Proof.Ffn
import Idealize.ShloMosaic.Lib.IdealHost
import Idealize.ShloMosaic.Lib.ValueIdx

noncomputable section

open scoped BigOperators

namespace Cert.ReferenceIdeal.RefValue

open Cert.ReferenceIdeal Cert.ReferenceIdeal.Gen Cert.ReferenceIdeal.Read Idealize.ShloMosaic
  Idealize.ShloMosaic.ValueIdx Cert.Ffn

variable (x0 : (⟨S16x4096x1024, .f32⟩ : BufTy).Contents (Elt Ideal)) (x1 : (⟨S65536, .i32⟩ : BufTy).Contents (Elt Ideal))
  (x2 : (⟨S128x512x1024, .f32⟩ : BufTy).Contents (Elt Ideal)) (x3 : (⟨S128x512, .f32⟩ : BufTy).Contents (Elt Ideal))
  (x4 : (⟨S128x1024x512, .f32⟩ : BufTy).Contents (Elt Ideal)) (x5 : (⟨S128x1024, .f32⟩ : BufTy).Contents (Elt Ideal))
  (x6 : (⟨S128x512x1024, .f32⟩ : BufTy).Contents (Elt Ideal)) (x7 : (⟨S128x512, .f32⟩ : BufTy).Contents (Elt Ideal))

/-- The operand indices of the up-projections at output entry (e, t, f) and contracted position k. -/
theorem lidx_up (e : Fin 128) (t f : Fin 512) (k : Fin 1024) : lidx_main_v9 (ix3 e t f) k = ix3 e t k :=
  funext fun a => by match a with | ⟨0, _⟩ => rfl | ⟨1, _⟩ => rfl | ⟨2, _⟩ => rfl
theorem ridx_up (e : Fin 128) (t f : Fin 512) (k : Fin 1024) : ridx_main_v9 (ix3 e t f) k = ix3 e f k :=
  funext fun a => by match a with | ⟨0, _⟩ => rfl | ⟨1, _⟩ => rfl | ⟨2, _⟩ => rfl
/-- The bias read through its two broadcasts. -/
theorem bidx_up (e : Fin 128) (t f : Fin 512) : idx_main_v10 (idx_main_v11 (ix3 e t f)) = ix2 e f :=
  funext fun a => by match a with | ⟨0, _⟩ => rfl | ⟨1, _⟩ => rfl

/-- The first up-projection with its bias. -/
theorem pre1 (e : Fin 128) (t f : Fin 512) :
    val_main_v12 (F := Ideal) x0 x1 x2 x3 (ix3 e t f)
      = pre (fun t c => val_main_v8 (F := Ideal) x0 x1 (ix3 e t c)) (fun f c => x2 (ix3 e f c)) (fun f => x3 (ix2 e f)) t f := by
  rw [val_main_v12_apply, val_main_v9_apply, val_main_v11_apply, val_main_v10_apply, bidx_up]
  unfold pre
  simp only [lidx_up, ridx_up]
  rfl

/-- The second up-projection with its bias. -/
theorem pre3 (e : Fin 128) (t f : Fin 512) :
    val_main_v16 (F := Ideal) x0 x1 x6 x7 (ix3 e t f)
      = pre (fun t c => val_main_v8 (F := Ideal) x0 x1 (ix3 e t c)) (fun f c => x6 (ix3 e f c)) (fun f => x7 (ix2 e f)) t f := by
  rw [val_main_v16_apply, val_main_v13_apply, val_main_v15_apply, val_main_v14_apply]
  unfold pre
  simp only [show ∀ k, lidx_main_v13 (ix3 e t f) k = ix3 e t k from lidx_up e t f,
    show ∀ k, ridx_main_v13 (ix3 e t f) k = ix3 e f k from ridx_up e t f,
    show idx_main_v14 (idx_main_v15 (ix3 e t f)) = ix2 e f from bidx_up e t f]
  rfl

/-- The activation as the reference spells it is `a * logistic a`. -/
theorem silu (j : S128x512x512.Idx) :
    val_main_v17 (F := Ideal) x0 x1 x2 x3 j
      = val_main_v12 (F := Ideal) x0 x1 x2 x3 j * Ideal.logistic (val_main_v12 (F := Ideal) x0 x1 x2 x3 j) := by
  rw [val_main_v17_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.ofBits_def, Ideal.ofBits_one_f32, Ideal.mulf_def, Ideal.hostDivf_def, Ideal.addf_def,
    Ideal.hostUnary_exp_def, Ideal.hostNegf_def, Ideal.negf_def]
  rfl

/-- The operand indices of the down-projection at output entry (e, t, c). -/
theorem lidx_down (e : Fin 128) (t : Fin 512) (c : Fin 1024) (k : Fin 512) : lidx_main_v19 (ix3 e t c) k = ix3 e t k :=
  funext fun a => by match a with | ⟨0, _⟩ => rfl | ⟨1, _⟩ => rfl | ⟨2, _⟩ => rfl
theorem ridx_down (e : Fin 128) (t : Fin 512) (c : Fin 1024) (k : Fin 512) : ridx_main_v19 (ix3 e t c) k = ix3 e c k :=
  funext fun a => by match a with | ⟨0, _⟩ => rfl | ⟨1, _⟩ => rfl | ⟨2, _⟩ => rfl
theorem bidx_down (e : Fin 128) (t : Fin 512) (c : Fin 1024) : idx_main_v20 (idx_main_v21 (ix3 e t c)) = ix2 e c :=
  funext fun a => by match a with | ⟨0, _⟩ => rfl | ⟨1, _⟩ => rfl

/-- THE REFERENCE'S GROUPED OUTPUT is `moe` of its grouped tokens and the parameters. -/
theorem grouped_out :
    val_main_v22 (F := Ideal) x0 x1 x2 x3 x4 x5 x6 x7
      = moe (val_main_v8 (F := Ideal) x0 x1) x2 x3 x6 x7 x4 x5 := by
  funext i
  obtain ⟨e, t, c, rfl⟩ : ∃ (e : Fin 128) (t : Fin 512) (c : Fin 1024), i = ix3 e t c := ⟨i 0, i 1, i 2, eq_ix3 i⟩
  rw [val_main_v22_apply, val_main_v19_apply, val_main_v21_apply, val_main_v20_apply, bidx_down]
  unfold moe ffn
  simp only [lidx_down, ridx_down, val_main_v18_apply, silu, pre1, pre3]
  rfl

end Cert.ReferenceIdeal.RefValue

end
-- ==== Proof.Join.lean ====
/-
  The two programs meet. The reference's result is the same scatter-back (`combine`) of the same expert-grouped
  array (`Cert.Ffn.moe`) of the same grouped tokens: its host lines after the grouped output are, word for word,
  the kernel program's lines after the region, and its gather of the input rows differs from the kernel
  program's only by the change of float format the kernel program folds into it, which is the identity on
  the extended reals.
-/
import proofs.«143851_j73126113181995_2_alg».proof.Proof.Reference
import proofs.«143851_j73126113181995_2_alg».proof.Proof.KernelRun

noncomputable section

namespace Cert.Proof.Join

open Idealize.ShloMosaic

/-- The reference's result, as the kernel program's result term of the same arguments. -/
theorem ref_result
    (x0 : (⟨Cert.ReferenceIdeal.S16x4096x1024, .f32⟩ : BufTy).Contents (Elt Ideal))
    (x1 : (⟨Cert.ReferenceIdeal.S65536, .i32⟩ : BufTy).Contents (Elt Ideal))
    (x2 : (⟨Cert.ReferenceIdeal.S128x512x1024, .f32⟩ : BufTy).Contents (Elt Ideal))
    (x3 : (⟨Cert.ReferenceIdeal.S128x512, .f32⟩ : BufTy).Contents (Elt Ideal))
    (x4 : (⟨Cert.ReferenceIdeal.S128x1024x512, .f32⟩ : BufTy).Contents (Elt Ideal))
    (x5 : (⟨Cert.ReferenceIdeal.S128x1024, .f32⟩ : BufTy).Contents (Elt Ideal))
    (x6 : (⟨Cert.ReferenceIdeal.S128x512x1024, .f32⟩ : BufTy).Contents (Elt Ideal))
    (x7 : (⟨Cert.ReferenceIdeal.S128x512, .f32⟩ : BufTy).Contents (Elt Ideal)) :
    Cert.ReferenceIdeal.Read.val_main_v32 (F := Ideal) x0 x1 x2 x3 x4 x5 x6 x7
      = Cert.KernelIdeal.KernelRun.combine
          (Cert.Ffn.moe (Cert.KernelIdeal.Entry.grouped (F := Ideal) x0 x1) x2 x3 x6 x7 x4 x5) x1 := by
  unfold Cert.ReferenceIdeal.Read.val_main_v32 Cert.ReferenceIdeal.Read.val_main_v31 Cert.ReferenceIdeal.Read.val_main_v23
  rw [Cert.ReferenceIdeal.RefValue.grouped_out]
  rfl

end Cert.Proof.Join

end
-- ==== Proof.lean ====
/-
  The certificate's five claims for the mixture-of-experts feed-forward kernel against its einsum reference.

  Both programs gather the input's token rows into 128 groups of 512, run each group through its expert's
  gated feed-forward block (two up-projections with biases, silu of the first times the second, a
  down-projection with bias), and scatter the rows back through the permutation that sorts the indices. The
  kernel program does the per-expert block in one kernel, one grid point per expert; the reference does it with
  three batched products. Over the extended reals the two results are ONE term of the arguments: the block is
  `Cert.Ffn.ffn` on both sides (Proof/Block.lean for the kernel's grid point, Proof/Reference.lean for the
  reference), the 128 blocks tile the kernel's output array (Proof/Blocks.lean), the operands the region finds
  are the arguments regrouped (Proof/Entry.lean), and the host lines around the region are the reference's own
  (Proof/KernelRun.lean, Proof/Join.lean). No law of arithmetic is used: every sum runs in the same order on both
  sides, and the changes of float format and the reference's spelling of the logistic function are
  identities at the ideal values. The precondition is not used.

  The frames of the two kernel programs are the generated ones; the reference's frame is its generated run
  with the result forgotten; the idealization rewrote nothing, so `preserves` is trivial.
-/
import proofs.«143851_j73126113181995_2_alg».proof.Defs
import proofs.«143851_j73126113181995_2_alg».proof.Proof.Gen.Kernel
import proofs.«143851_j73126113181995_2_alg».proof.Proof.Gen.Kernel.Skeleton
import proofs.«143851_j73126113181995_2_alg».proof.Proof.Gen.Kernel.Launch
import proofs.«143851_j73126113181995_2_alg».proof.Proof.Gen.Kernel.Points
import proofs.«143851_j73126113181995_2_alg».proof.Proof.Gen.Kernel.Frame
import proofs.«143851_j73126113181995_2_alg».proof.Proof.Gen.KernelIdeal
import proofs.«143851_j73126113181995_2_alg».proof.Proof.Gen.KernelIdeal.Skeleton
import proofs.«143851_j73126113181995_2_alg».proof.Proof.Gen.KernelIdeal.Launch
import proofs.«143851_j73126113181995_2_alg».proof.Proof.Gen.KernelIdeal.Points
import proofs.«143851_j73126113181995_2_alg».proof.Proof.Gen.KernelIdeal.Frame
import proofs.«143851_j73126113181995_2_alg».proof.Proof.Gen.ReferenceIdeal
import proofs.«143851_j73126113181995_2_alg».proof.Proof.Gen.ReferenceIdeal.Run
import proofs.«143851_j73126113181995_2_alg».proof.Proof.Gen.ReferenceIdeal.Read
import proofs.«143851_j73126113181995_2_alg».proof.Proof.Gen.Pre_finite_inputs
import proofs.«143851_j73126113181995_2_alg».proof.Proof.KernelRun
import proofs.«143851_j73126113181995_2_alg».proof.Proof.Reference
import proofs.«143851_j73126113181995_2_alg».proof.Proof.Join
import Idealize.ShloMosaic.Adequacy
import Idealize.ShloMosaic.Init

noncomputable section

namespace Cert.Proof

open Idealize.ShloMosaic Idealize.SL.Sem

namespace Claims

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the same result: the kernel
    program's at `KernelRun.result` of its arguments, the reference's at the same term of its own. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  refine (Cert.ReferenceIdeal.Read.val_main_v32_eq _ _ _ _ _ _ _ _).trans ?_
  rw [Cert.Proof.Join.ref_result, e0, e1, e2, e3, e4, e5, e6, e7]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
